-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x20x768 : Shape := ⟨4, ![2, 16, 20, 768]⟩
abbrev S30000x768 : Shape := ⟨2, ![30000, 768]⟩
abbrev S768x768 : Shape := ⟨2, ![768, 768]⟩
abbrev S768 : Shape := ⟨1, ![768]⟩
abbrev S_ : Shape := ⟨0, ![]⟩

class Facts : Prop where
  bcast_S_S2x16x20x768 : S_.BroadcastsInDim S2x16x20x768 (![] : Fin 0 → Fin S2x16x20x768.rank)
  reducesTo_S2x16x20x768_S_d0_1_2_3 : S2x16x20x768.ReducesTo [0, 1, 2, 3] S_
  h_S_ : 0 < S_.numel
  bcast_S_S30000x768 : S_.BroadcastsInDim S30000x768 (![] : Fin 0 → Fin S30000x768.rank)
  reducesTo_S30000x768_S_d0_1 : S30000x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S2x16x20x768 .f32) (main_arg1 : FVec F S30000x768 .f32) (main_arg2 : FVec F S768x768 .f32) (main_arg3 : FVec F S768 .f32) : IVec S_ 1 :=
  let main_v0 : FVec F S2x16x20x768 .f32 := Host.absf main_arg0
  let main_cst : FVec F S_ .f32 := constant S_ .f32 0x7F800000#32
  let main_v1 : FVec F S2x16x20x768 .f32 := broadcastInDim S2x16x20x768 ![] bcast_S_S2x16x20x768 main_cst
  let main_v2 : IVec S2x16x20x768 1 := cmpf .olt main_v0 main_v1
  let main_c : IVec S_ 1 := constantI S_ 1 1#1
  let main_v3 : IVec S_ 1 := (fun x v => Host.reduce IntOp.andi x v reducesTo_S2x16x20x768_S_d0_1_2_3 h_S_) main_v2 main_c
  let main_v4 : FVec F S30000x768 .f32 := Host.absf main_arg1
  let main_cst_0 : FVec F S_ .f32 := constant S_ .f32 0x7F800000#32
  let main_v5 : FVec F S30000x768 .f32 := broadcastInDim S30000x768 ![] bcast_S_S30000x768 main_cst_0
  let main_v6 : IVec S30000x768 1 := cmpf .olt main_v4 main_v5
  let main_c_1 : IVec S_ 1 := constantI S_ 1 1#1
  let main_v7 : IVec S_ 1 := (fun x v => Host.reduce IntOp.andi x v reducesTo_S30000x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S2x16x20x768 : Shape := ⟨4, ![2, 16, 20, 768]⟩
abbrev S30000x768 : Shape := ⟨2, ![30000, 768]⟩
abbrev S768x768 : Shape := ⟨2, ![768, 768]⟩
abbrev S768 : Shape := ⟨1, ![768]⟩
abbrev S640x768 : Shape := ⟨2, ![640, 768]⟩
abbrev S1x768 : Shape := ⟨2, ![1, 768]⟩
abbrev S640x30000 : Shape := ⟨2, ![640, 30000]⟩
abbrev S1536x768 : Shape := ⟨2, ![1536, 768]⟩
abbrev S640x1536 : Shape := ⟨2, ![640, 1536]⟩
abbrev S2x16x20x30000 : Shape := ⟨4, ![2, 16, 20, 30000]⟩

abbrev nBuf : Space → Nat
  | .hbm => 8
  | .vmem => 7
  | .smem => 0
  | _ => 0

abbrev bufTy : (tb : Table) → Fin (tcTables nBuf tb) → BufTy
  | .hbm, ⟨0, _⟩ => ⟨S2x16x20x768, .f32⟩
  | .hbm, ⟨1, _⟩ => ⟨S30000x768, .f32⟩
  | .hbm, ⟨2, _⟩ => ⟨S768x768, .f32⟩
  | .hbm, ⟨3, _⟩ => ⟨S768, .f32⟩
  | .hbm, ⟨4, _⟩ => ⟨S640x768, .f32⟩
  | .hbm, ⟨5, _⟩ => ⟨S1x768, .f32⟩
  | .hbm, ⟨6, _⟩ => ⟨S640x30000, .f32⟩
  | .hbm, ⟨7, _⟩ => ⟨S2x16x20x30000, .f32⟩
  | .local _ .vmem, ⟨0, _⟩ => ⟨S640x768, .f32⟩
  | .local _ .vmem, ⟨1, _⟩ => ⟨S1536x768, .f32⟩
  | .local _ .vmem, ⟨2, _⟩ => ⟨S1536x768, .f32⟩
  | .local _ .vmem, ⟨3, _⟩ => ⟨S768x768, .f32⟩
  | .local _ .vmem, ⟨4, _⟩ => ⟨S1x768, .f32⟩
  | .local _ .vmem, ⟨5, _⟩ => ⟨S640x1536, .f32⟩
  | .local _ .vmem, ⟨6, _⟩ => ⟨S640x1536, .f32⟩
  | _, _ => ⟨S2x16x20x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S640x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2x16x20x768_S640x768 : S2x16x20x768.ShapeCasts S640x768
  shapeCasts_S768_S1x768 : S768.ShapeCasts S1x768
  inb_S640x768_S640x768_0_0 : ∀ a, (![0, 0] : Fin 2 → Nat) a + S640x768.size a ≤ S640x768.size a
  h_S640x768 : 0 < S640x768.numel
  shapeCasts_S640x768_S640x768 : S640x768.ShapeCasts S640x768
  bitsLt_bf16_f32 : FTy.bits .bf16 < FTy.bits .f32
  inb_S1536x768_S1536x768_0_0 : ∀ a, (![0, 0] : Fin 2 → Nat) a + S1536x768.size a ≤ S1536x768.size a
  h_S1536x768 : 0 < S1536x768.numel
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1536x768 : S1x768.Broadcasts S1536x768
  inb_S640x1536_S640x1536_0_0 : ∀ a, (![0, 0] : Fin 2 → Nat) a + S640x1536.size a ≤ S640x1536.size a
  h_S640x1536 : 0 < S640x1536.numel
  shapeCasts_S640x30000_S2x16x20x30000 : S640x30000.ShapeCasts S2x16x20x30000
  dot_S1536x768_S768x768_S1536x768_1_1_0_0_n_n_wf : DotDims.WF S1536x768 S768x768 S1536x768 [1] [1] [0] [0] [] []
  dot_S640x768_S1536x768_S640x1536_1_1_0_0_n_n_wf : DotDims.WF S640x768 S1536x768 S640x1536 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S640x768.size a ≤ S640x768.size a
  hwx0_0 : ∀ i : grid0.Coords, EltTy.bits .f32 = 32 ∨ (Rect.block (s := S640x768) S640x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1536x768.size a < S30000x768.size a
  hwx0_1 : ∀ i : grid0.Coords, EltTy.bits .f32 = 32 ∨ (Rect.unit (s := S30000x768) (fun a => cc0_transform_1 i a * S1536x768.size a) (fun a => (Pipeline.Clip.of (cc0_transform_1 i a) (S1536x768.size a) (S30000x768.size a)).extent (S1536x768.size a)) fun a => Pipeline.Clip.inb (Pipeline.Clip.ok_of (hstart0_1 i a))).WholeWords (EltTy.packing .f32)
  hwxs0_1 : ∀ i : grid0.Coords, EltTy.bits .f32 = 32 ∨ (Rect.unit (s := S1536x768) (fun _ => 0) (fun a => (Pipeline.Clip.of (cc0_transform_1 i a) (S1536x768.size a) (S30000x768.size a)).extent (S1536x768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S640x1536.size a < S640x30000.size a
  hwx0_4 : ∀ i : grid0.Coords, EltTy.bits .f32 = 32 ∨ (Rect.unit (s := S640x30000) (fun a => cc0_transform_4 i a * S640x1536.size a) (fun a => (Pipeline.Clip.of (cc0_transform_4 i a) (S640x1536.size a) (S640x30000.size a)).extent (S640x1536.size a)) fun a => Pipeline.Clip.inb (Pipeline.Clip.ok_of (hstart0_4 i a))).WholeWords (EltTy.packing .f32)
  hwxs0_4 : ∀ i : grid0.Coords, EltTy.bits .f32 = 32 ∨ (Rect.unit (s := S640x1536) (fun _ => 0) (fun a => (Pipeline.Clip.of (cc0_transform_4 i a) (S640x1536.size a) (S640x30000.size a)).extent (S640x1536.size a)) fun a => (Nat.zero_add _).trans_le (Pipeline.Clip.extent_le (Pipeline.Clip.ok_of (hstart0_4 i a)))).WholeWords (EltTy.packing .f32)

variable [Facts₀]

def dot_S1536x768_S768x768_S1536x768_1_1_0_0_n_n : DotDims S1536x768 S768x768 S1536x768 where
  lhsContracting := [1]
  rhsContracting := [1]
  lhsNonContracting := [0]
  rhsNonContracting := [0]
  lhsBatch := []
  rhsBatch := []
  wf := dot_S1536x768_S768x768_S1536x768_1_1_0_0_n_n_wf
def dot_S640x768_S1536x768_S640x1536_1_1_0_0_n_n : DotDims S640x768 S1536x768 S640x1536 where
  lhsContracting := [1]
  rhsContracting := [1]
  lhsNonContracting := [0]
  rhsNonContracting := [0]
  lhsBatch := []
  rhsBatch := []
  wf := dot_S640x768_S1536x768_S640x1536_1_1_0_0_n_n_wf

abbrev win0_0 : Pipeline.Window sig grid0 :=
  Pipeline.Window.ofSpec (Memref.whole main_v0) S640x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1536x768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v2) S640x1536.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x20x768 : Shape := ⟨4, ![2, 16, 20, 768]⟩
abbrev S30000x768 : Shape := ⟨2, ![30000, 768]⟩
abbrev S768x768 : Shape := ⟨2, ![768, 768]⟩
abbrev S768 : Shape := ⟨1, ![768]⟩
abbrev S1x768 : Shape := ⟨2, ![1, 768]⟩
abbrev S2x16x20x30000 : Shape := ⟨4, ![2, 16, 20, 30000]⟩

abbrev nBuf : Space → Nat
  | .hbm => 10
  | .vmem => 0
  | .smem => 0
  | _ => 0

abbrev bufTy : (tb : Table) → Fin (tcTables nBuf tb) → BufTy
  | .hbm, ⟨0, _⟩ => ⟨S2x16x20x768, .f32⟩
  | .hbm, ⟨1, _⟩ => ⟨S30000x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S30000x768, .f32⟩
  | .hbm, ⟨6, _⟩ => ⟨S1x768, .f32⟩
  | .hbm, ⟨7, _⟩ => ⟨S30000x768, .f32⟩
  | .hbm, ⟨8, _⟩ => ⟨S30000x768, .f32⟩
  | .hbm, ⟨9, _⟩ => ⟨S2x16x20x30000, .f32⟩
  | _, _ => ⟨S2x16x20x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S768x768_S768x768_1_0 : S768x768.Transposes [1, 0] S768x768
  bcast_S768_S1x768_1 : S768.BroadcastsInDim S1x768 (![1] : Fin 1 → Fin S1x768.rank)
  bcast_S1x768_S30000x768_0_1 : S1x768.BroadcastsInDim S30000x768 (![0, 1] : Fin 2 → Fin S30000x768.rank)
  dot_S30000x768_S768x768_S30000x768_1_0_0_1_n_n_wf : DotDims.WF S30000x768 S768x768 S30000x768 [1] [0] [0] [1] [] []
  dot_S2x16x20x768_S30000x768_S2x16x20x30000_3_1_012_0_n_n_wf : DotDims.WF S2x16x20x768 S30000x768 S2x16x20x30000 [3] [1] [0, 1, 2] [0] [] []

variable [Facts₀]

def dot_S30000x768_S768x768_S30000x768_1_0_0_1_n_n : DotDims S30000x768 S768x768 S30000x768 where
  lhsContracting := [1]
  rhsContracting := [0]
  lhsNonContracting := [0]
  rhsNonContracting := [1]
  lhsBatch := []
  rhsBatch := []
  wf := dot_S30000x768_S768x768_S30000x768_1_0_0_1_n_n_wf
def dot_S2x16x20x768_S30000x768_S2x16x20x30000_3_1_012_0_n_n : DotDims S2x16x20x768 S30000x768 S2x16x20x30000 where
  lhsContracting := [3]
  rhsContracting := [1]
  lhsNonContracting := [0, 1, 2]
  rhsNonContracting := [0]
  lhsBatch := []
  rhsBatch := []
  wf := dot_S2x16x20x768_S30000x768_S2x16x20x30000_3_1_012_0_n_n_wf

class Facts : Prop extends Facts₀ where

variable [Facts]
-- ==== Proof.BodyB.lean ====
/-
  The kernel body of one grid point, as a triple over whole staging buffers, for any float instance.

  One point of the grid loads the whole answer block `a` [640, 768], the whole vocabulary tile `v` [1536, 768],
  the whole weight matrix `w` [768, 768] and the bias row `b` [1, 768], and stores, over the whole result tile
  [640, 1536], the product `a · (v · wᵀ + b)ᵀ`. The staging buffers of the four inputs are left as they were
  found; the result's buffer ends holding that one stored value, a pure function of the four loaded blocks.
-/
import proofs.«134227_j12721693131030_1_alg».proof.Proof.Gen.Kernel.Frame
import proofs.«134227_j12721693131030_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole-buffer rectangles the body loads and stores through. -/
abbrev rA : Rect S640x768 := Rect.unit (s := S640x768) ![0, 0] S640x768.size inb_S640x768_S640x768_0_0
abbrev rV : Rect S1536x768 := Rect.unit (s := S1536x768) ![0, 0] S1536x768.size inb_S1536x768_S1536x768_0_0
abbrev rW : Rect S768x768 := Rect.unit (s := S768x768) ![0, 0] S768x768.size inb_S768x768_S768x768_0_0
abbrev rB : Rect S1x768 := Rect.unit (s := S1x768) ![0, 0] S1x768.size inb_S1x768_S1x768_0_0
abbrev rO : Rect S640x1536 := Rect.unit (s := S640x1536) ![0, 0] S640x1536.size inb_S640x1536_S640x1536_0_0

/-- What the result tile's buffer holds after the body, from what the four input buffers hold: the one store,
    over the whole tile, of the product computed from the four whole loads. -/
def tileOut (a : Vec F S640x768 .f32) (v : Vec F S1536x768 .f32) (w : Vec F S768x768 .f32) (b : Vec F S1x768 .f32) :
    Vec F S640x1536 .f32 :=
  View.canon [⟨rO, k0_pay1 (View.ld a rA) (View.ld v rV) (View.ld w rW) (View.ld b rB)⟩]

/-- The one store covers the tile. -/
theorem tile_cover (p0 : Vec F S640x1536 .f32) (y : S640x1536.Idx) :
    ∃ pc ∈ ([⟨rO, p0⟩] : List (View.Piece (Elt F) S640x1536 .f32)), y ∈ pc.1.set :=
  View.cover_of_tiled [⟨rO, p0⟩] S640x1536.size (by rfl) y

set_option maxHeartbeats 1000000 in
/-- The body on whole staging memrefs: the inputs' at contents `a v w b`, the result's at anything; it runs to the
    continuation with the inputs' as they were and the result's at `tileOut a v w b`. -/
theorem sound_kernel (c : Dev nD) (E : Set ℕ) (i : grid0.Coords)
    (arg1 : Memref sig .tc .vmem S640x768 .f32) (harg1 : arg1.IsWhole) (arg2 : Memref sig .tc .vmem S1536x768 .f32) (harg2 : arg2.IsWhole)
    (arg3 : Memref sig .tc .vmem S768x768 .f32) (harg3 : arg3.IsWhole) (arg4 : Memref sig .tc .vmem S1x768 .f32) (harg4 : arg4.IsWhole)
    (arg5 : Memref sig .tc .vmem S640x1536 .f32) (harg5 : arg5.IsWhole)
    (a : Vec F S640x768 .f32) (v : Vec F S1536x768 .f32) (w : Vec F S768x768 .f32) (b : Vec F S1x768 .f32) (K : PUnit → sProp 𝕄) :
    iprop(owns (c : Thread nD τ) arg1 fullShare a ∗ owns (c : Thread nD τ) arg2 fullShare v ∗ owns (c : Thread nD τ) arg3 fullShare w
        ∗ owns (c : Thread nD τ) arg4 fullShare b ∗ (∃ d, owns (c : Thread nD τ) arg5 fullShare d)
        ∗ (iprop(owns (c : Thread nD τ) arg1 fullShare a ∗ owns (c : Thread nD τ) arg2 fullShare v ∗ owns (c : Thread nD τ) arg3 fullShare w
            ∗ owns (c : Thread nD τ) arg4 fullShare b ∗ owns (c : Thread nD τ) arg5 fullShare (tileOut a v w b)) -∗ K ⟨⟩))
      ⊢ wp frame (wpE (defs₀ (F := F)) Variants.none c none) E (cc0__fused_kernel i arg1 harg1 arg2 harg2 arg3 harg3 arg4 harg4 arg5 harg5) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

end Cert.Kernel.Body

end
-- ==== Proof.FrameB.lean ====
/-
  The word-level kernel's frame: it runs to the end, faults nowhere, and leaves its four argument arrays as launched.

  The frame says nothing about the result array, so nothing about what any staging buffer holds needs a name: at
  every grid point the body is handed its five staging buffers at whatever they hold and hands them back at whatever
  it leaves (the one whole-tile store is in bounds whatever the loaded words are). The two arrays the pipeline stages
  as inputs, the vocabulary matrix and the weight matrix, are never written by a write-back; the answer array and the
  bias vector are read only by the reshapes before the region; the reshape after the region writes the result alone.
-/
import proofs.«134227_j12721693131030_1_alg».proof.Proof.BodyB

set_option maxRecDepth 16384

noncomputable section

namespace Cert.Kernel.FrameB

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window's staging contents go unnamed. -/
def unnamedAll : Fin 5 → Bool := fun _ => true

/-- The proof data: the arrays as the region finds them; no staging contents named; the class invariant; nothing
    owed; full shares. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with at point `t`: the invariant, nothing owed, the five current staging buffers at any
    contents; -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X))

/-- and what it returns: the same, the buffers at some contents. -/
def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X))

/-- At every point the body runs from any contents of its five buffers to some contents of them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩, ⟨%X3, H3⟩, ⟨%X4, H4⟩⟩
  iapply (sound_kernel c Set.univ (grid0.coords t) _ _ _ _ _ _ _ _ _ _ X0 X1 X2 X3 _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  iexists _; iexact H4

/-- The library's body obligation with every window's contents unnamed. -/
theorem body_obligation (c : Dev nD) :
    BodyObligation (dats (F := F) m 0 c) (defs₀ (F := F)) Variants.none () Set.univ unnamedAll := fun t => by
  rw [bigSep_W0, bigSep_W0]
  exact sound_body m c t

/-- The one line after the region writes the result buffer only. -/
theorem tail_writes : ∀ ops ∈ ([hostOps1] : List (List (HloOp τ sig (Elt F)))), ∀ op ∈ ops,
    ∀ b : Ref sig .tc, Proc.devRef .tc b ∈ op.writes → b ∈ ({main_v3} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  exact Finset.mem_singleton.mpr (Proc.devRef_injective (τ := τ) _ hb)

set_option backward.isDefEq.respectTransparency.types false in
/-- Every weakly fair execution of @main terminates; every array the pipeline stages ends at contents the proof data
    allows, and every other unscoped buffer but the result at its region-entry contents. -/
theorem run_main : θ_run defs (onTc (τ := τ) (main (F := F))) (s₀ m ρ)
    (Pipeline.RDat.FramePostR (cfgs 0) (fun c => (dats m 0 c).toRForget unnamedAll) {main_v3} (V m)) :=
  Pipeline.RDat.θ_run_frame_around_T cfgs (0 : Fin 1) launch0 defs₀ Variants.none (fun c => (dats m 0 c).toRForget unnamedAll) {main_v3} m ρ main
    (hbody := fun c => (body_obligation m c).toRForget) (hshare := fun c => ((dats m 0 c).toRForget unnamedAll).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_arg0 (Finset.mem_sdiff.mpr ⟨Pipeline.mem_restRefs_of main_arg0 (by decide) (by decide), by decide⟩)).trans (V_main_arg0 m c),
      (Eq.mp (congrFun (((dats m 0 c).toRForget unnamedAll).ArrAt_in 1 rfl _) _) ((h c).1 1)).trans ((A_eq m c 1).trans (V_main_arg1 m c)),
      (Eq.mp (congrFun (((dats m 0 c).toRForget unnamedAll).ArrAt_in 2 rfl _) _) ((h c).1 2)).trans ((A_eq m c 2).trans (V_main_arg2 m c)),
      ((h c).2 main_arg3 (Finset.mem_sdiff.mpr ⟨Pipeline.mem_restRefs_of main_arg3 (by decide) (by decide), by decide⟩)).trans (V_main_arg3 m c)⟩)
    (run_main m ρ)

end Cert.Kernel.FrameB

end
-- ==== Proof.BodyI.lean ====
/-
  The kernel body of one grid point, as a triple over whole staging buffers, for any float instance.

  One point of the grid loads the whole answer block `a` [640, 768], the whole vocabulary tile `v` [1536, 768],
  the whole weight matrix `w` [768, 768] and the bias row `b` [1, 768], and stores, over the whole result tile
  [640, 1536], the product `a · (v · wᵀ + b)ᵀ`. The staging buffers of the four inputs are left as they were
  found; the result's buffer ends holding that one stored value, a pure function of the four loaded blocks.
-/
import proofs.«134227_j12721693131030_1_alg».proof.Proof.Gen.KernelIdeal.Frame
import proofs.«134227_j12721693131030_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole-buffer rectangles the body loads and stores through. -/
abbrev rA : Rect S640x768 := Rect.unit (s := S640x768) ![0, 0] S640x768.size inb_S640x768_S640x768_0_0
abbrev rV : Rect S1536x768 := Rect.unit (s := S1536x768) ![0, 0] S1536x768.size inb_S1536x768_S1536x768_0_0
abbrev rW : Rect S768x768 := Rect.unit (s := S768x768) ![0, 0] S768x768.size inb_S768x768_S768x768_0_0
abbrev rB : Rect S1x768 := Rect.unit (s := S1x768) ![0, 0] S1x768.size inb_S1x768_S1x768_0_0
abbrev rO : Rect S640x1536 := Rect.unit (s := S640x1536) ![0, 0] S640x1536.size inb_S640x1536_S640x1536_0_0

/-- What the result tile's buffer holds after the body, from what the four input buffers hold: the one store,
    over the whole tile, of the product computed from the four whole loads. -/
def tileOut (a : Vec F S640x768 .f32) (v : Vec F S1536x768 .f32) (w : Vec F S768x768 .f32) (b : Vec F S1x768 .f32) :
    Vec F S640x1536 .f32 :=
  View.canon [⟨rO, k0_pay1 (View.ld a rA) (View.ld v rV) (View.ld w rW) (View.ld b rB)⟩]

/-- The one store covers the tile. -/
theorem tile_cover (p0 : Vec F S640x1536 .f32) (y : S640x1536.Idx) :
    ∃ pc ∈ ([⟨rO, p0⟩] : List (View.Piece (Elt F) S640x1536 .f32)), y ∈ pc.1.set :=
  View.cover_of_tiled [⟨rO, p0⟩] S640x1536.size (by rfl) y

set_option maxHeartbeats 1000000 in
/-- The body on whole staging memrefs: the inputs' at contents `a v w b`, the result's at anything; it runs to the
    continuation with the inputs' as they were and the result's at `tileOut a v w b`. -/
theorem sound_kernel (c : Dev nD) (E : Set ℕ) (i : grid0.Coords)
    (arg1 : Memref sig .tc .vmem S640x768 .f32) (harg1 : arg1.IsWhole) (arg2 : Memref sig .tc .vmem S1536x768 .f32) (harg2 : arg2.IsWhole)
    (arg3 : Memref sig .tc .vmem S768x768 .f32) (harg3 : arg3.IsWhole) (arg4 : Memref sig .tc .vmem S1x768 .f32) (harg4 : arg4.IsWhole)
    (arg5 : Memref sig .tc .vmem S640x1536 .f32) (harg5 : arg5.IsWhole)
    (a : Vec F S640x768 .f32) (v : Vec F S1536x768 .f32) (w : Vec F S768x768 .f32) (b : Vec F S1x768 .f32) (K : PUnit → sProp 𝕄) :
    iprop(owns (c : Thread nD τ) arg1 fullShare a ∗ owns (c : Thread nD τ) arg2 fullShare v ∗ owns (c : Thread nD τ) arg3 fullShare w
        ∗ owns (c : Thread nD τ) arg4 fullShare b ∗ (∃ d, owns (c : Thread nD τ) arg5 fullShare d)
        ∗ (iprop(owns (c : Thread nD τ) arg1 fullShare a ∗ owns (c : Thread nD τ) arg2 fullShare v ∗ owns (c : Thread nD τ) arg3 fullShare w
            ∗ owns (c : Thread nD τ) arg4 fullShare b ∗ owns (c : Thread nD τ) arg5 fullShare (tileOut a v w b)) -∗ K ⟨⟩))
      ⊢ wp frame (wpE (defs₀ (F := F)) Variants.none c none) E (cc0__fused_kernel i arg1 harg1 arg2 harg2 arg3 harg3 arg4 harg4 arg5 harg5) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

end Cert.KernelIdeal.Body

end
-- ==== Proof.FrameI.lean ====
/-
  The idealized kernel's run, with every staging buffer's contents named.

  The grid has twenty points; point `t` works on vocabulary rows `1536·t ‥ 1536·t + 1535`. The vocabulary has 30000
  rows, so the last tile overhangs the array by 720 rows: its fetch fills only the first 816 rows of the staging
  buffer, the rest holding words nothing names, and its write-back writes only the first 816 columns of the result
  tile. The proof data therefore names the vocabulary tile as "the block inside the array, filled out with zeros" and
  the result tile as the body's product of that; the body is handed the tile filled out with anything, and what it
  stores agrees with the named tile on the columns that are written back provided column `q` of the product depends
  on row `q` of the vocabulary tile alone — the hypothesis `RowLocal`, a fact about the arithmetic, proved where the
  float instance is fixed.
-/
import proofs.«134227_j12721693131030_1_alg».proof.Proof.BodyI

set_option maxRecDepth 16384

noncomputable section

namespace Cert.KernelIdeal.FrameI

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Column `q` of the result tile depends on row `q` of the vocabulary tile alone: two vocabulary tiles that agree
    on the rows a point's fetch fills give result tiles that agree on the columns its write-back writes. -/
def RowLocal (F : FTy → Type) [FloatOps F] : Prop :=
  ∀ (t : Fin cfg0.N) (a : Vec F S640x768 .f32) (v v' : Vec F S1536x768 .f32) (w : Vec F S768x768 .f32) (b : Vec F S1x768 .f32),
    win0_1.cut (grid0.coords t) v = win0_1.cut (grid0.coords t) v' →
    win0_4.cut (grid0.coords t) (tileOut a v w b) = win0_4.cut (grid0.coords t) (tileOut a v' w b)

variable (m : (ℓ : Loc nD τ sig) → Buf (Elt F) ℓ) (ρ : Dev nD → PrngReg)

/-- The vocabulary tile of point `t` as the proof data names it: the rows inside the array, then zeros. -/
def vocabTile (c : Dev nD) (t : Fin cfg0.N) : S1536x768.Idx → Elt F .f32 :=
  win0_1.fill (grid0.coords t) (fun _ => Scalar.ofBits .f32 0#32) (iblk m c 1 t)

/-- The proof data: the arrays as the region finds them; after the body each input's buffer at its block (the
    vocabulary's at `vocabTile`) and the result's at the body's product of them; the class invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => vocabTile m c t
    | ⟨2, _⟩ => iblk m c 2 t
    | ⟨3, _⟩ => iblk m c 3 t
    | ⟨4, _⟩ => tileOut (iblk m c 0 t) (vocabTile m c t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = vocabTile m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = tileOut (iblk m c 0 t) (vocabTile m c t) (iblk m c 2 t) (iblk m c 3 t) := by dsimp only [dats]

/-- The three inputs fetched once hold their block at every point. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The vocabulary tile is fetched at every point: the rows inside the array, then whatever the buffer held. -/
theorem before0_1 (c : Dev nD) (t : Fin cfg0.N) (d) :
    (dats m 0 c).before 1 t d = win0_1.fill (grid0.coords t) d (iblk m c 1 t) :=
  ((dats m 0 c).before_fetched 1 t (fetch0_1 t) d).trans (by unfold Dat.fetched Dat.blockOf iblk; rw [A_eq]; try rfl)

/-- The result tile's buffer is written back at every point: the body finds anything in it. -/
theorem before0_4 (c : Dev nD) (t : Fin cfg0.N) (d) : (dats m 0 c).before 4 t d = d :=
  (dats m 0 c).before_out_reset 4 rfl t (by
    by_cases h : t.val = 0
    · exact .inl h
    · exact .inr ⟨h, flush0_4 _⟩) d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the two windows whose last block overhangs stated on the part their transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t)))))

theorem sound_body (hloc : RowLocal F) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  -- the vocabulary tile the body finds agrees with the named one on the rows the fetch fills
  have hcut : win0_1.cut (grid0.coords t) (win0_1.fill (grid0.coords t) d1 (iblk m c 1 t))
      = win0_1.cut (grid0.coords t) (vocabTile m c t) := by
    unfold vocabTile; rw [win0_1.cut_fill, win0_1.cut_fill]
  have h1 : win0_1.fill (grid0.coords t) d1 (win0_1.cut (grid0.coords t) (vocabTile m c t))
      = win0_1.fill (grid0.coords t) d1 (iblk m c 1 t) := by
    unfold vocabTile; rw [win0_1.cut_fill]
  have h4 := win0_4.fill_congr_cut (grid0.coords t)
    (hloc t (iblk m c 0 t) (win0_1.fill (grid0.coords t) d1 (iblk m c 1 t)) (vocabTile m c t) (iblk m c 2 t) (iblk m c 3 t) hcut)
  iapply (sound_kernel c Set.univ (grid0.coords t) _ _ _ _ _ _ _ _ _ _ (iblk m c 0 t) (win0_1.fill (grid0.coords t) d1 (iblk m c 1 t))
    (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]
  · iexists d1; rw [h1]; iexact H1
  isplitl [H2]; · iexact H2
  isplitl [H3]; · iexact H3
  iexists _; rw [h4]; iexact H4

/-- The library's body obligation, the overhanging windows stated on the part their transfers move. -/
theorem body_obligation (hloc : RowLocal F) (c : Dev nD) :
    BodyObligationLoose (dats (F := F) m 0 c) (defs₀ (F := F)) Variants.none () Set.univ := fun t => by
  rw [bigSep_W0, bigSep_W0]
  exact sound_body m hloc c t

set_option backward.isDefEq.respectTransparency.types false in
/-- Every weakly fair execution of @main terminates; every array the pipeline stages ends at what the library computes
    from the proof data, every other unscoped buffer as the reshape after the region leaves it. -/
theorem run_main (hloc : RowLocal F) : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m hloc c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the four argument arrays end as launched. -/
theorem frame (hloc : RowLocal F) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ hloc)

end Cert.KernelIdeal.FrameI

end
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.TileValue.lean ====
/-
  One result tile on the extended reals, entry by entry.

  With exact arithmetic and format changes the identity, the tile a grid point stores is, at row `p` and column `q`,

      ∑ d, a(p, d) · ( ∑ e, v(q, e) · w(d, e)  +  b(0, d) )

  for the answer block `a`, the vocabulary tile `v`, the weight matrix `w` and the bias row `b`: both matrix
  products contract the operands' last axes into a zero accumulator, and the bias row is repeated down the tile's
  rows. Column `q` reads row `q` of the vocabulary tile and no other, which is the row-locality the run needs for
  the tile that overhangs the array.
-/
import proofs.«134227_j12721693131030_1_alg».proof.Proof.FrameI
import proofs.«134227_j12721693131030_1_alg».proof.Proof.LibTransposedDot
import Idealize.ShloMosaic.Lib.Pipeline.Value
import Idealize.ShloMosaic.Lib.ValueIdx
import Idealize.ShloMosaic.PureOps.Ideal.Laws

set_option maxRecDepth 16384

noncomputable section

namespace Cert.KernelIdeal.TileValue

open Cert.KernelIdeal Cert.KernelIdeal.Gen Cert.KernelIdeal.Body
open Idealize.ShloMosaic Idealize.ShloMosaic.TcCoe Idealize.ShloMosaic.ValueIdx

/-- The body's one store is through the whole tile and its loads through the whole buffers: what the result's buffer
    holds is the stored product of the four buffers' contents. -/
theorem tileOut_eq {F : FTy → Type} [FloatOps F] (a : Vec F S640x768 .f32) (v : Vec F S1536x768 .f32) (w : Vec F S768x768 .f32)
    (b : Vec F S1x768 .f32) : tileOut a v w b = k0_pay1 a v w b := by
  have hz : (![0, 0] : Fin 2 → Nat) = fun _ => 0 := funext fun x => by fin_cases x <;> rfl
  unfold tileOut
  rw [View.canon_unit_zero hz]
  simp only [View.ld_unit_zero (S := S640x768) hz, View.ld_unit_zero (S := S1536x768) hz,
    View.ld_unit_zero (S := S768x768) hz, View.ld_unit_zero (S := S1x768) hz]

/-- The bias row repeated down the tile's rows, read at an entry. -/
theorem bias_rows_apply (b : Vec Ideal S1x768 .f32) (q : Fin 1536) (d : Fin 768) :
    broadcastTo S1536x768 (shapeCast S1x768 b Facts₀.shapeCasts_S1x768_S1x768) Facts₀.broadcasts_S1x768_S1536x768 (ix2 q d)
      = b (ix2 (0 : Fin 1) d) :=
  (broadcastTo_apply _ _ (ix2 q d) (ix2 (0 : Fin 1) d) (fun x => by
    match x with
    | ⟨0, _⟩ => rfl
    | ⟨1, _⟩ => rfl)).trans (congrFun (shapeCast_self b _) _)

/-- The tile at row `p`, column `q`. -/
theorem pay_apply (a : Vec Ideal S640x768 .f32) (v : Vec Ideal S1536x768 .f32) (w : Vec Ideal S768x768 .f32)
    (b : Vec Ideal S1x768 .f32) (p : Fin 640) (q : Fin 1536) :
    k0_pay1 (F := Ideal) a v w b (ix2 p q)
      = ∑ d : Fin 768, a (ix2 p d) * ((∑ e : Fin 768, v (ix2 q e) * w (ix2 d e)) + b (ix2 (0 : Fin 1) d)) := by
  unfold k0_pay1
  refine (LinkLoss.transposed_matmul_zero_apply (M := 640) (K := 768) (N := 1536) (φ₁ := .bf16) (φ₂ := .bf16) _ _ none p q).trans ?_
  refine Finset.sum_congr rfl fun d _ => ?_
  refine congrArg₂ (· * ·) (congrFun (shapeCast_self a _) _) ?_
  refine congrArg₂ (· + ·) ?_ (bias_rows_apply b q d)
  exact (LinkLoss.transposed_matmul_zero_apply (M := 1536) (K := 768) (N := 768) (φ₁ := .bf16) (φ₂ := .bf16) _ _ none q d).trans
    (Finset.sum_congr rfl fun e _ => rfl)

/-- The extents the two overhanging windows' transfers move at a point: the result tile's columns are the vocabulary
    tile's rows, and the vocabulary tile's columns are all 768. -/
theorem moved_extents : ∀ t : Fin cfg0.N,
    win0_4.xsize (grid0.coords t) 1 = win0_1.xsize (grid0.coords t) 0 ∧ win0_1.xsize (grid0.coords t) 1 = 768 :=
  (by decide +kernel : ∀ t : Fin grid0.N,
    win0_4.xsize (grid0.coords t) 1 = win0_1.xsize (grid0.coords t) 0 ∧ win0_1.xsize (grid0.coords t) 1 = 768)

/-- An entry of the part of the result tile a point writes back, as a row and a column of the tile. -/
theorem moved_entry (t : Fin cfg0.N) (j : (win0_4.xblock (grid0.coords t)).Idx) :
    ∃ (p : Fin 640) (q : Fin 1536), p.val = (j 0).val ∧ q.val = (j 1).val
      ∧ (win0_4.xinj (grid0.coords t) j : S640x1536.Idx) = ix2 p q :=
  ⟨⟨(j 0).val, (win0_4.xinj (grid0.coords t) j 0).isLt⟩, ⟨(j 1).val, (win0_4.xinj (grid0.coords t) j 1).isLt⟩, rfl, rfl,
    funext fun x => Fin.ext (by
      match x with
      | ⟨0, _⟩ => rfl
      | ⟨1, _⟩ => rfl)⟩

/-- A row the fetch of point `t` fills, and a column, as an entry of the part of the vocabulary tile the fetch moves. -/
theorem moved_row (t : Fin cfg0.N) (q : Fin 1536) (hq : q.val < win0_1.xsize (grid0.coords t) 0) (e : Fin 768) :
    ∃ j' : (win0_1.xblock (grid0.coords t)).Idx, (j' 0).val = q.val ∧ (j' 1).val = e.val
      ∧ (ix2 q e : S1536x768.Idx) = win0_1.xinj (grid0.coords t) j' :=
  have he : e.val < win0_1.xsize (grid0.coords t) 1 := by rw [(moved_extents t).2]; exact e.isLt
  ⟨fun x => match x with
      | ⟨0, _⟩ => ⟨q.val, hq⟩
      | ⟨1, _⟩ => ⟨e.val, he⟩, rfl, rfl,
    funext fun x => Fin.ext (by
      match x with
      | ⟨0, _⟩ => rfl
      | ⟨1, _⟩ => rfl)⟩

/-- Column `q` of the tile depends on row `q` of the vocabulary tile alone. -/
theorem rowLocal : FrameI.RowLocal Ideal := by
  intro t a v v' w b h
  funext j
  show tileOut a v w b (win0_4.xinj (grid0.coords t) j) = tileOut a v' w b (win0_4.xinj (grid0.coords t) j)
  obtain ⟨p, q, -, hq, hx⟩ := moved_entry t j
  rw [tileOut_eq, tileOut_eq, hx, pay_apply, pay_apply]
  have hq' : q.val < win0_1.xsize (grid0.coords t) 0 := by
    rw [hq, ← (moved_extents t).1]; exact (j 1).isLt
  have hv : ∀ e : Fin 768, v (ix2 q e) = v' (ix2 q e) := fun e => by
    obtain ⟨j', -, -, hj'⟩ := moved_row t q hq' e
    rw [hj']
    exact congrFun h j'
  simp only [hv]

end Cert.KernelIdeal.TileValue

end
-- ==== Proof.Spec.lean ====
/-
  The specification both programs meet, on the extended reals, and nothing else.

  For an answer embedding `a` [2, 16, 20, 768], a vocabulary embedding `voc` [30000, 768], a weight matrix `W` [768, 768]
  and a bias `b` [768], the score of answer position (l, s, p) against vocabulary entry v is

      ∑ d, a(l, s, p, d) · ( ∑ e, voc(v, e) · W(d, e)  +  b(d) )

  — the answer row against the v-th row of the transformed vocabulary `voc · Wᵀ + b`.
-/
import Idealize.ShloMosaic.PureOps.Ideal
import Idealize.ShloMosaic.Lib.ValueIdx

noncomputable section

namespace Cert.Spec

open Idealize.ShloMosaic Idealize.ShloMosaic.ValueIdx

abbrev SA : Shape := ⟨4, ![2, 16, 20, 768]⟩
abbrev SVoc : Shape := ⟨2, ![30000, 768]⟩
abbrev SW : Shape := ⟨2, ![768, 768]⟩
abbrev SB : Shape := ⟨1, ![768]⟩
abbrev SOut : Shape := ⟨4, ![2, 16, 20, 30000]⟩

/-- Entry (v, d) of the transformed vocabulary `voc · Wᵀ + b`. -/
def classifier (voc : SVoc.Idx → EReal) (W : SW.Idx → EReal) (b : SB.Idx → EReal) (v : Fin 30000) (d : Fin 768) : EReal :=
  (∑ e : Fin 768, voc (ix2 v e) * W (ix2 d e)) + b (ix1 d)

/-- The score of answer position (l, s, p) against vocabulary entry v. -/
def score (a : SA.Idx → EReal) (voc : SVoc.Idx → EReal) (W : SW.Idx → EReal) (b : SB.Idx → EReal)
    (l : Fin 2) (s : Fin 16) (p : Fin 20) (v : Fin 30000) : EReal :=
  ∑ d : Fin 768, a (ix4 l s p d) * classifier voc W b v d

/-- All scores, as one array. -/
def scores (a : SA.Idx → EReal) (voc : SVoc.Idx → EReal) (W : SW.Idx → EReal) (b : SB.Idx → EReal) : SOut.Idx → EReal :=
  fun i => score a voc W b (i 0) (i 1) (i 2) (i 3)

end Cert.Spec

end
-- ==== Proof.ArrayValue.lean ====
/-
  The idealized kernel's result array, as one function of its four arguments.

  Point `t` of the grid writes back the part of its result tile that lies inside the [640, 30000] array: rows 0‥639,
  columns 1536·t ‥ min(30000, 1536·t + 1536) − 1. That part is, entry by entry, the flat score of the region's four
  arrays — the answer matrix, the vocabulary, the weights and the bias row — at the array's own index; the twenty parts
  tile the array, so the array ends holding the flat scores. The answer matrix and the bias row the region finds are
  reshapes of the arguments, and the result is a reshape of the array: row `320·l + 20·s + p` of the flat scores is
  position (l, s, p) of the scores.
-/
import proofs.«134227_j12721693131030_1_alg».proof.Proof.TileValue
import proofs.«134227_j12721693131030_1_alg».proof.Proof.Spec
import Idealize.ShloMosaic.Lib.StableHlo.Run

set_option maxRecDepth 16384

noncomputable section

namespace Cert.KernelIdeal.ArrayValue

open Cert.KernelIdeal Cert.KernelIdeal.Gen Cert.KernelIdeal.Body Cert.KernelIdeal.FrameI Cert.KernelIdeal.TileValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The [640, 30000] array of scores of the region's four arrays: the answer matrix `A` [640, 768], the vocabulary,
    the weights and the bias row `b2` [1, 768]. -/
def flatScores (A : S640x768.Idx → EReal) (voc : S30000x768.Idx → EReal) (W : S768x768.Idx → EReal) (b2 : S1x768.Idx → EReal) :
    S640x30000.Idx → EReal :=
  fun i => ∑ d : Fin 768, A (ix2 (i 0) d) * ((∑ e : Fin 768, voc (ix2 (i 1) e) * W (ix2 d e)) + b2 (ix2 (0 : Fin 1) d))

/-- The printed index maps over the grid: only the vocabulary's rows and the result's columns move, with the point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val)

/-- What a write-back moves: all 640 rows, and the tile's columns up to the array's end. -/
theorem out_extents : ∀ t : Fin cfg0.N,
    win0_4.xsize (grid0.coords t) 0 = 640 ∧ t.val * 1536 + win0_4.xsize (grid0.coords t) 1 = min 30000 (t.val * 1536 + 1536) :=
  (by decide +kernel : ∀ t : Fin grid0.N,
    win0_4.xsize (grid0.coords t) 0 = 640 ∧ t.val * 1536 + win0_4.xsize (grid0.coords t) 1 = min 30000 (t.val * 1536 + 1536))

/-- The answer block of any point is the whole answer matrix. -/
theorem answer_apply (c : Dev nD) (t : Fin cfg0.N) (p : Fin 640) (d : Fin 768) :
    iblk m c 0 t (ix2 p d) = V m c main_v0 (ix2 p d) := by
  obtain ⟨e00, e01, -⟩ := idx_facts t
  show V m c main_v0 (((cfg0.win 0).blk t).view.emb (ix2 p d)) = _
  refine congrArg (V m c main_v0) (funext fun x => Fin.ext ?_)
  match x with
  | ⟨0, _⟩ => show win0_0.index t (0 : Fin 2) * 640 + 1 * p.val = p.val; omega
  | ⟨1, _⟩ => show win0_0.index t (1 : Fin 2) * 768 + 1 * d.val = d.val; omega

/-- The weight block of any point is the whole weight matrix. -/
theorem weight_apply (c : Dev nD) (t : Fin cfg0.N) (d e : Fin 768) :
    iblk m c 2 t (ix2 d e) = V m c main_arg2 (ix2 d e) := by
  obtain ⟨-, -, -, -, e20, e21, -⟩ := idx_facts t
  show V m c main_arg2 (((cfg0.win 2).blk t).view.emb (ix2 d e)) = _
  refine congrArg (V m c main_arg2) (funext fun x => Fin.ext ?_)
  match x with
  | ⟨0, _⟩ => show win0_2.index t (0 : Fin 2) * 768 + 1 * d.val = d.val; omega
  | ⟨1, _⟩ => show win0_2.index t (1 : Fin 2) * 768 + 1 * e.val = e.val; omega

/-- The bias block of any point is the whole bias row. -/
theorem bias_apply (c : Dev nD) (t : Fin cfg0.N) (d : Fin 768) :
    iblk m c 3 t (ix2 (0 : Fin 1) d) = V m c main_v1 (ix2 (0 : Fin 1) d) := by
  obtain ⟨-, -, -, -, -, -, e30, e31, -⟩ := idx_facts t
  show V m c main_v1 (((cfg0.win 3).blk t).view.emb (ix2 (0 : Fin 1) d)) = _
  refine congrArg (V m c main_v1) (funext fun x => Fin.ext ?_)
  match x with
  | ⟨0, _⟩ => show win0_3.index t (0 : Fin 2) * 1 + 1 * 0 = 0; omega
  | ⟨1, _⟩ => show win0_3.index t (1 : Fin 2) * 768 + 1 * d.val = d.val; omega

/-- A row of the named vocabulary tile that the fetch fills is the vocabulary's row `1536·t + q`. -/
theorem vocab_apply (c : Dev nD) (t : Fin cfg0.N) (q : Fin 1536) (hq : q.val < win0_1.xsize (grid0.coords t) 0) (e : Fin 768)
    (r : Fin 30000) (hr : r.val = t.val * 1536 + q.val) :
    vocabTile m c t (ix2 q e) = V m c main_arg1 (ix2 r e) := by
  obtain ⟨-, -, e10, e11, -⟩ := idx_facts t
  obtain ⟨j', h0, h1, hj'⟩ := moved_row t q hq e
  unfold vocabTile
  rw [hj', win0_1.fill_xinj]
  show V m c main_arg1 (((cfg0.win 1).blk t).view.emb j') = _
  refine congrArg (V m c main_arg1) (funext fun x => Fin.ext ?_)
  match x with
  | ⟨0, _⟩ => show win0_1.index t (0 : Fin 2) * 1536 + 1 * (j' 0).val = r.val; omega
  | ⟨1, _⟩ => show win0_1.index t (1 : Fin 2) * 768 + 1 * (j' 1).val = e.val; omega

/-- What point `t` writes back is its part of the flat scores of the region's arrays. -/
theorem flushed_eq (c : Dev nD) (t : Fin cfg0.N) :
    (dats m 0 c).flushed 4 t = ((cfg0.win 4).blk t).view.read (Elt Ideal)
      (flatScores (V m c main_v0) (V m c main_arg1) (V m c main_arg2) (V m c main_v1)) := by
  show (cfg0.win 4).cut (grid0.coords t) ((dats m 0 c).after 4 t) = _
  rw [after0_4, tileOut_eq]
  obtain ⟨-, -, -, -, -, -, -, -, e40, e41⟩ := idx_facts t
  obtain ⟨x40, x41⟩ := out_extents t
  funext j
  obtain ⟨p, q, hp, hq, hx⟩ := moved_entry t j
  show k0_pay1 (F := Ideal) (iblk m c 0 t) (vocabTile m c t) (iblk m c 2 t) (iblk m c 3 t) (win0_4.xinj (grid0.coords t) j)
    = flatScores _ _ _ _ (((cfg0.win 4).blk t).view.emb j)
  rw [hx, pay_apply]
  unfold flatScores
  have hj1 : (j 1).val < win0_4.xsize (grid0.coords t) 1 := (j 1).isLt
  have i0 : ((((cfg0.win 4).blk t).view.emb j) 0).val = p.val := by
    show win0_4.index t (0 : Fin 2) * 640 + 1 * (j 0).val = _; omega
  have i1 : ((((cfg0.win 4).blk t).view.emb j) 1).val = t.val * 1536 + q.val := by
    show win0_4.index t (1 : Fin 2) * 1536 + 1 * (j 1).val = _; omega
  have hq' : q.val < win0_1.xsize (grid0.coords t) 0 := by
    rw [hq, ← (moved_extents t).1]; exact (j 1).isLt
  have ep : (((cfg0.win 4).blk t).view.emb j) 0 = p := Fin.ext i0
  refine Finset.sum_congr rfl fun d _ => ?_
  rw [answer_apply, bias_apply, ep]
  refine congrArg₂ (fun x y : EReal => x * y) rfl (congrArg₂ (fun x y : EReal => x + y) ?_ rfl)
  refine Finset.sum_congr rfl fun e _ => ?_
  rw [weight_apply, vocab_apply m c t q hq' e _ i1]

/-- An index of the result array is in point `t`'s written part iff each coordinate is in its range. -/
theorem mem_blk (t : Fin cfg0.N) (i : S640x30000.Idx) :
    i ∈ ((cfg0.win 4).blk t).view.set ↔ ∀ a : Fin 2, win0_4.index t a * S640x1536.size a ≤ (i a).val
      ∧ (i a).val < win0_4.index t a * S640x1536.size a + win0_4.xsize (grid0.coords t) a := by
  show i ∈ ((View.whole main_v2).slice (win0_4.rect t)).set ↔ _
  rw [View.set_slice_whole, Rect.mem_set_unit]
  exact Iff.rfl

/-- The twenty written parts cover the array: column `k` is written by point `k / 1536`. -/
theorem cover (i : S640x30000.Idx) :
    ∃ t : Fin cfg0.N, (cfg0.win 4).flush t = true ∧ i ∈ ((cfg0.win 4).blk t).view.set := by
  have hi0 : (i 0).val < 640 := (i 0).isLt
  have hi1 : (i 1).val < 30000 := (i 1).isLt
  have hN : cfg0.N = 20 := N_0
  let t : Fin cfg0.N := ⟨(i 1).val / 1536, by rw [hN]; omega⟩
  have ht : t.val = (i 1).val / 1536 := rfl
  obtain ⟨-, -, -, -, -, -, -, -, e40, e41⟩ := idx_facts t
  obtain ⟨x40, x41⟩ := out_extents t
  refine ⟨t, flush0_4 t, ?_⟩
  rw [mem_blk]
  intro a
  match a with
  | ⟨0, _⟩ =>
    show win0_4.index t (0 : Fin 2) * 640 ≤ (i 0).val ∧ (i 0).val < win0_4.index t (0 : Fin 2) * 640 + win0_4.xsize (grid0.coords t) 0
    omega
  | ⟨1, _⟩ =>
    show win0_4.index t (1 : Fin 2) * 1536 ≤ (i 1).val ∧ (i 1).val < win0_4.index t (1 : Fin 2) * 1536 + win0_4.xsize (grid0.coords t) 1
    omega

/-- The result array after the last write-back: the flat scores of the region's arrays. -/
theorem final_flat (c : Dev nD) :
    (dats m 0 c).arrAt 4 cfg0.N = flatScores (V m c main_v0) (V m c main_arg1) (V m c main_arg2) (V m c main_v1) :=
  (dats m 0 c).arrAt_eq_of_cover 4 _ (fun t _ => flushed_eq m c t) cover

end Cert.KernelIdeal.ArrayValue

end
-- ==== Proof.KernelRun.lean ====
/-
  The idealized kernel's run, read at its result: the scores of its four arguments.

  The region finds the answer embedding reshaped to [640, 768] (row `320·l + 20·s + p` is position (l, s, p)) and the
  bias reshaped to a row; it leaves the [640, 30000] array of flat scores; the one line after it reshapes that array to
  [2, 16, 20, 30000]. Reading each reshape at an index turns the flat scores of the reshaped arguments into the scores
  of the arguments themselves.
-/
import proofs.«134227_j12721693131030_1_alg».proof.Proof.ArrayValue

set_option maxRecDepth 16384

noncomputable section

namespace Cert.KernelIdeal.KernelRun

open Cert.KernelIdeal Cert.KernelIdeal.Gen Cert.KernelIdeal.Body Cert.KernelIdeal.FrameI Cert.KernelIdeal.TileValue
open Cert.KernelIdeal.ArrayValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The answer matrix the region finds is the answer embedding with its three leading axes flattened. -/
theorem V_main_v0_eq (c : Dev nD) : (V m c main_v0 : S640x768.Idx → EReal)
    = shapeCast S640x768 (m ((c : Thread nD τ).loc main_arg0)) Facts₀.shapeCasts_S2x16x20x768_S640x768 := by
  show StableHlo.after hostOps0 (fun b => m (c, b)) (Proc.devRef .tc main_v0) = _
  after_results
  rfl

/-- The bias row the region finds is the bias vector as one row. -/
theorem V_main_v1_eq (c : Dev nD) : (V m c main_v1 : S1x768.Idx → EReal)
    = shapeCast S1x768 (m ((c : Thread nD τ).loc main_arg3)) Facts₀.shapeCasts_S768_S1x768 := by
  show StableHlo.after hostOps0 (fun b => m (c, b)) (Proc.devRef .tc main_v1) = _
  after_results
  rfl

/-- Row `320·l + 20·s + p` of the answer matrix is position (l, s, p) of the answer embedding. -/
theorem answer_row (c : Dev nD) (l : Fin 2) (s : Fin 16) (p : Fin 20) (r : Fin 640) (hr : r.val = 320 * l.val + 20 * s.val + p.val)
    (d : Fin 768) : V m c main_v0 (ix2 r d) = m ((c : Thread nD τ).loc main_arg0) (ix4 l s p d) := by
  rw [V_main_v0_eq]
  refine shapeCast_apply _ _ (ix2 r d) (ix4 l s p d) ?_
  rw [Shape.rowMajor_val_four, Shape.rowMajor_val_two]
  show ((l.val * 16 + s.val) * 20 + p.val) * 768 + d.val = r.val * 768 + d.val
  rw [hr]; ring

/-- The bias row at column `d` is the bias at `d`. -/
theorem bias_entry (c : Dev nD) (d : Fin 768) :
    V m c main_v1 (ix2 (0 : Fin 1) d) = m ((c : Thread nD τ).loc main_arg3) (ix1 d) := by
  rw [V_main_v1_eq]
  refine shapeCast_apply _ _ (ix2 (0 : Fin 1) d) (ix1 d) ?_
  rw [Shape.rowMajor_val_one, Shape.rowMajor_val_two]
  show d.val = 0 * 768 + d.val
  omega

/-- What the result buffer holds after the line that follows the region: the flat scores, reshaped. -/
theorem tail_eq (c : Dev nD) :
    Pipeline.afterTail₀ cfgs (dats m) 0 (V0 m) [hostOps1] c main_v3
      = shapeCast S2x16x20x30000 (flatScores (V m c main_v0) (V m c main_arg1) (V m c main_arg2) (V m c main_v1))
          Facts₀.shapeCasts_S640x30000_S2x16x20x30000 := by
  have hw := (Pipeline.withArrays_arr spec0 launch0.win.arr_inj c (V0 m c) (fun w => (dats m 0 c).arrAt w cfg0.N) 4).trans
    (final_flat m c)
  unfold Pipeline.afterTail₀
  show StableHlo.after hostOps1 _ (Proc.devRef .tc main_v3) = _
  after_results
  exact (show _ = shapeCast S2x16x20x30000 (Pipeline.withArrays spec0 c (V0 m c) (fun w => (dats m 0 c).arrAt w cfg0.N)
      (Proc.devRef .tc (Pipeline.arrRef spec0 4))) Facts₀.shapeCasts_S640x30000_S2x16x20x30000 from rfl).trans (by rw [hw])

/-- The result buffer after the run holds the scores of the four arguments. -/
theorem result_eq_scores (c : Dev nD) :
    Pipeline.afterTail₀ cfgs (dats m) 0 (V0 m) [hostOps1] c main_v3
      = Cert.Spec.scores (m ((c : Thread nD τ).loc main_arg0)) (m ((c : Thread nD τ).loc main_arg1))
          (m ((c : Thread nD τ).loc main_arg2)) (m ((c : Thread nD τ).loc main_arg3)) := by
  rw [tail_eq]
  funext i
  obtain ⟨l, s, p, v, rfl⟩ : ∃ (l : Fin 2) (s : Fin 16) (p : Fin 20) (v : Fin 30000), i = ix4 l s p v :=
    ⟨i 0, i 1, i 2, i 3, eq_ix4 i⟩
  have hr : 320 * l.val + 20 * s.val + p.val < 640 := by
    have := l.isLt; have := s.isLt; have := p.isLt; omega
  rw [shapeCast_apply _ _ (ix4 l s p v) (ix2 (⟨320 * l.val + 20 * s.val + p.val, hr⟩ : Fin 640) v) (by
    rw [Shape.rowMajor_val_four, Shape.rowMajor_val_two]
    show (320 * l.val + 20 * s.val + p.val) * 30000 + v.val = ((l.val * 16 + s.val) * 20 + p.val) * 30000 + v.val
    ring)]
  unfold flatScores Cert.Spec.scores Cert.Spec.score Cert.Spec.classifier
  refine Finset.sum_congr rfl fun d _ => ?_
  rw [answer_row m c l s p _ rfl d, bias_entry m c d, V_main_arg1, V_main_arg2]

/-- Every weakly fair execution of the idealized kernel's @main terminates with the result buffer at the scores of the
    arguments and the arguments unchanged. -/
theorem run : θ_run defs (onTc (τ := τ) (main (F := Ideal))) ⟨m, fun _ => 0, ρ⟩ (fun r => ∀ c : Dev nD,
      r.2.mem ((c.tc : Thread nD τ).loc main_v3)
        = Cert.Spec.scores (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v3 (Pipeline.mem_restRefs_of main_v3 (by decide) (by decide))).trans (result_eq_scores m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ rowLocal)

end Cert.KernelIdeal.KernelRun

end
-- ==== Proof.RefSide.lean ====
/-
  The reference computes the specification.

  The reference transposes `W`, multiplies the vocabulary by it (entry (v, d) is `∑ e, voc(v, e) · W(d, e)`), adds the bias
  broadcast down the rows, and contracts the answer embedding's last axis with the result's last axis: entry
  (l, s, p, v) is `∑ d, a(l, s, p, d) · (∑ e, voc(v, e) · W(d, e) + b(d))` — the specification's score, term for term.
-/
import proofs.«134227_j12721693131030_1_alg».proof.Proof.Gen.ReferenceIdeal.Read
import proofs.«134227_j12721693131030_1_alg».proof.Proof.Spec

noncomputable section

namespace Cert.ReferenceIdeal.RefSide

open Cert.ReferenceIdeal Cert.ReferenceIdeal.Read Idealize.ShloMosaic Idealize.ShloMosaic.ValueIdx

/-- The reference's result, as a function of its four arguments, is the array of scores. -/
theorem result_eq_scores (a : S2x16x20x768.Idx → EReal) (voc : S30000x768.Idx → EReal) (W : S768x768.Idx → EReal)
    (b : S768.Idx → EReal) :
    val_main_v5 (F := Ideal) a voc W b = Cert.Spec.scores a voc W b := by
  funext i
  obtain ⟨l, s, p, v, rfl⟩ : ∃ (l : Fin 2) (s : Fin 16) (p : Fin 20) (v : Fin 30000), i = ix4 l s p v :=
    ⟨i 0, i 1, i 2, i 3, eq_ix4 i⟩
  rw [val_main_v5_apply]
  unfold Cert.Spec.scores Cert.Spec.score
  refine Finset.sum_congr rfl fun d _ => ?_
  have e1 : lidx_main_v5 (ix4 l s p v) d = ix4 l s p d := funext fun x => Fin.ext (by
    match x with
    | ⟨0, _⟩ => rfl
    | ⟨1, _⟩ => rfl
    | ⟨2, _⟩ => rfl
    | ⟨3, _⟩ => rfl)
  have e2 : ridx_main_v5 (ix4 l s p v) d = ix2 v d := funext fun x => Fin.ext (by
    match x with
    | ⟨0, _⟩ => rfl
    | ⟨1, _⟩ => rfl)
  rw [e1, e2, val_main_v4_apply, val_main_v1_apply, val_main_v3_apply, val_main_v2_apply]
  unfold Cert.Spec.classifier
  have e3 : idx_main_v2 (idx_main_v3 (ix2 v d)) = ix1 d := funext fun x => Fin.ext (by
    match x with
    | ⟨0, _⟩ => rfl)
  rw [e3]
  refine congrArg (a (ix4 l s p d) * ·) ?_
  refine congrArg (· + b (ix1 d)) ?_
  refine Finset.sum_congr rfl fun e _ => ?_
  have e4 : lidx_main_v1 (ix2 v d) e = ix2 v e := funext fun x => Fin.ext (by
    match x with
    | ⟨0, _⟩ => rfl
    | ⟨1, _⟩ => rfl)
  have e5 : idx_main_v0 (ridx_main_v1 (ix2 v d) e) = ix2 d e := funext fun x => Fin.ext (by
    match x with
    | ⟨0, _⟩ => rfl
    | ⟨1, _⟩ => rfl)
  rw [val_main_v0_apply, e4, e5]

end Cert.ReferenceIdeal.RefSide

end
-- ==== Proof.lean ====
/-
  The proof of `Cert.Claim`: a fused vocabulary classifier — scores of every answer position against every row of the
  transformed vocabulary `voc · Wᵀ + b` — computed tile by tile over the vocabulary, against the reference that
  transforms the whole vocabulary and contracts once.

  On the extended reals both programs compute, at answer position (l, s, p) and vocabulary entry v,

      ∑ d, a(l, s, p, d) · ( ∑ e, voc(v, e) · W(d, e) + b(d) )

  (Proof/Spec.lean). The kernel tiles the vocabulary in twenty tiles of 1536 rows, the last overhanging the 30000 rows
  by 720: each tile's scores depend on that tile's rows alone, column by column (Proof/TileValue.lean), the parts
  written back tile the result (Proof/ArrayValue.lean), and the reshapes around the region only re-index
  (Proof/KernelRun.lean). The reference's transpose, product, broadcast, sum and contraction read at an index are the
  same double sum (Proof/RefSide.lean). No law beyond re-indexing is used, so finiteness of the inputs is never opened.

  The frames: the word-level kernel's says nothing of the result, so its staging contents go unnamed
  (Proof/FrameB.lean); the idealized kernel's comes with its run (Proof/FrameI.lean); the reference's is its run with
  the result dropped. The idealization rewrote no operation, so `preserves` is `True`.
-/
import proofs.«134227_j12721693131030_1_alg».proof.Defs
import proofs.«134227_j12721693131030_1_alg».proof.Proof.Gen.Kernel
import proofs.«134227_j12721693131030_1_alg».proof.Proof.Gen.KernelIdeal
import proofs.«134227_j12721693131030_1_alg».proof.Proof.Gen.ReferenceIdeal
import proofs.«134227_j12721693131030_1_alg».proof.Proof.Gen.Pre_finite_inputs
import proofs.«134227_j12721693131030_1_alg».proof.Proof.Gen.ReferenceIdeal.Run
import proofs.«134227_j12721693131030_1_alg».proof.Proof.Gen.ReferenceIdeal.Read
import proofs.«134227_j12721693131030_1_alg».proof.Proof.FrameB
import proofs.«134227_j12721693131030_1_alg».proof.Proof.KernelRun
import proofs.«134227_j12721693131030_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.FrameB.frame (F := Bits) m ρ

theorem frame_kernelIdeal : Cert.frame_KernelIdeal := fun m ρ _ =>
  Cert.KernelIdeal.FrameI.frame (F := Ideal) m ρ Cert.KernelIdeal.TileValue.rowLocal

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the scores of the (agreeing) arguments. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefSide.result_eq_scores,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
